-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S8192x256 : Shape := ⟨2, ![8192, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S4096x256 .f32) (main_arg1 : FVec F S8192x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S4096x8192 : Shape := ⟨2, ![4096, 8192]⟩
abbrev S512x256 : Shape := ⟨2, ![512, 256]⟩
abbrev S4096x512 : Shape := ⟨2, ![4096, 512]⟩
abbrev S4096 : Shape := ⟨1, ![4096]⟩
abbrev S4096x1 : Shape := ⟨2, ![4096, 1]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S8192x256, .f32⟩
  | .hbm, ⟨2, _⟩ => ⟨S4096x8192, .f32⟩
  | .local _ .vmem, ⟨0, _⟩ => ⟨S4096x256, .f32⟩
  | .local _ .vmem, ⟨1, _⟩ => ⟨S512x256, .f32⟩
  | .local _ .vmem, ⟨2, _⟩ => ⟨S512x256, .f32⟩
  | .local _ .vmem, ⟨3, _⟩ => ⟨S4096x512, .f32⟩
  | .local _ .vmem, ⟨4, _⟩ => ⟨S4096x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  broadcasts_S4096x1_S4096x256 : S4096x1.Broadcasts S4096x256
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  broadcasts_S512x1_S512x256 : S512x1.Broadcasts S512x256
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  dot_S4096x256_S512x256_S4096x512_1_1_0_0_n_n_wf : DotDims.WF S4096x256 S512x256 S4096x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x8192.size a
  hwx0_2 : ∀ i : grid0.Coords, EltTy.bits .f32 = 32 ∨ (Rect.block (s := S4096x8192) S4096x512.size (cc0_transform_2 i) (hinb0_2 i)).WholeWords (EltTy.packing .f32)

variable [Facts₀]

def dot_S4096x256_S512x256_S4096x512_1_1_0_0_n_n : DotDims S4096x256 S512x256 S4096x512 where
  lhsContracting := [1]
  rhsContracting := [1]
  lhsNonContracting := [0]
  rhsNonContracting := [0]
  lhsBatch := []
  rhsBatch := []
  wf := dot_S4096x256_S512x256_S4096x512_1_1_0_0_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x1 : Shape := ⟨2, ![8192, 1]⟩
abbrev S256x8192 : Shape := ⟨2, ![256, 8192]⟩
abbrev S4096x8192 : Shape := ⟨2, ![4096, 8192]⟩

abbrev nBuf : Space → Nat
  | .hbm => 27
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S8192x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S8192x256, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x256, .f32⟩
  | .hbm, ⟨21, _⟩ => ⟨S8192x256, .f32⟩
  | .hbm, ⟨22, _⟩ => ⟨S256x8192, .f32⟩
  | .hbm, ⟨23, _⟩ => ⟨S4096x8192, .f32⟩
  | .hbm, ⟨24, _⟩ => ⟨S_, .f32⟩
  | .hbm, ⟨25, _⟩ => ⟨S4096x8192, .f32⟩
  | .hbm, ⟨26, _⟩ => ⟨S4096x8192, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  reducesTo_S8192x256_S8192_d1 : S8192x256.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S4096x8192 : S_.BroadcastsInDim S4096x8192 (![] : Fin 0 → Fin S4096x8192.rank)
  dot_S4096x256_S256x8192_S4096x8192_1_0_0_1_n_n_wf : DotDims.WF S4096x256 S256x8192 S4096x8192 [1] [0] [0] [1] [] []

variable [Facts₀]

def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf

class Facts : Prop extends Facts₀ where

variable [Facts]
-- ==== Proof.LibEReal.lean ====
/-
  General facts about extended reals, for programs read at exact (extended-real) arithmetic whose values are real numbers
  except for a −∞ a running maximum starts from.

  The operations on coerced reals are the coerced real operations: a finite sum (coe_sum), exp of a difference
  (exp_coe_sub), a quotient by a nonzero real (div_coe_coe), max (max_coe_coe). A maximum folded from −∞ over a nonempty
  finite family of reals is a real (fold_max_real), and max(−∞, c) = c (max_bot_coe). The rescaling factor of a first
  block, exp(−∞ − c), is 0 (exp_bot_sub). The f32 pattern 0xFF800000 is −∞ (ofBits_neg_inf).
-/
import Idealize.ShloMosaic.PureOps.Ideal
import Idealize.ShloMosaic.PureOps.Ideal.Laws

noncomputable section

open scoped BigOperators

namespace Cert.LibEReal

open Idealize.ShloMosaic

/-- A finite sum of coerced reals is the coerced sum. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- exp of a difference of reals. -/
theorem exp_coe_sub (a b : ℝ) : Ideal.exp ((a : EReal) - (b : EReal)) = ((Real.exp (a - b) : ℝ) : EReal) := by
  rw [← EReal.coe_sub]; rfl

/-- The first block's rescaling factor: exp(−∞ − c) = 0. -/
theorem exp_bot_sub (b : ℝ) : Ideal.exp ((⊥ : EReal) - (b : EReal)) = 0 := by
  rw [EReal.bot_sub]; rfl

/-- A quotient of reals by a nonzero real. -/
theorem div_coe_coe (a l : ℝ) (hl : l ≠ 0) : Ideal.div (a : EReal) (l : EReal) = ((a / l : ℝ) : EReal) := by
  rw [Ideal.div_coe hl, ← EReal.coe_mul]; congr 1; rw [mul_one_div]

/-- The f32 pattern of −∞ is the bottom element. -/
theorem ofBits_neg_inf : Ideal.ofBits .f32 0xFF800000#32 = (⊥ : EReal) := by simp [Ideal.ofBits, Ideal.ieee]

/-- A maximum folded from −∞ over a nonempty finite family of reals is a real. -/
theorem fold_max_real {ι : Type} [Fintype ι] [Nonempty ι] (f : ι → ℝ) :
    ∃ c : ℝ, (Finset.univ : Finset ι).fold max (⊥ : EReal) (fun k => ((f k : ℝ) : EReal)) = (c : EReal) := by
  have hlt : (Finset.univ : Finset ι).fold max (⊥ : EReal) (fun k => ((f k : ℝ) : EReal)) < ⊤ :=
    (Finset.fold_max_lt ⊤).mpr ⟨bot_lt_top, fun k _ => EReal.coe_lt_top _⟩
  have hgt : (⊥ : EReal) < (Finset.univ : Finset ι).fold max (⊥ : EReal) (fun k => ((f k : ℝ) : EReal)) :=
    (Finset.lt_fold_max ⊥).mpr (Or.inr ⟨Classical.arbitrary ι, Finset.mem_univ _, EReal.bot_lt_coe _⟩)
  exact ⟨_, (EReal.coe_toReal hlt.ne hgt.ne').symm⟩

/-- The running maximum after a block: from −∞ or from a real, against a real block maximum, it is a real. -/
theorem max_bot_coe (c : ℝ) : max (⊥ : EReal) (c : EReal) = (c : EReal) := max_bot_left _
theorem max_coe_coe (a b : ℝ) : max (a : EReal) (b : EReal) = ((max a b : ℝ) : EReal) := (EReal.coe_strictMono.monotone.map_max).symm

end Cert.LibEReal

end
-- ==== Proof.CosineLaw.lean ====
/-
  The mathematics that joins the two programs, over one row u of x and one row w of group_features.

  The guarded norm of a row is  ‖u‖ = max (√(Σₖ uₖ²)) ε.  The reference forms the cosine logit
      ( Σₖ (uₖ / ‖u‖) · (wₖ / ‖w‖) ) / D
  and the kernel folds the reciprocal c = 1/D of the temperature into the first factor:
      Σₖ (uₖ · (c / ‖u‖)) · (wₖ / ‖w‖).
  When every entry is a real number and ε > 0, both guarded norms are positive reals, every quotient is a real
  quotient, and the two expressions are equal by pulling the constant c out of the sum (distributivity, which on
  the extended reals needs exactly this finiteness).
-/
import Idealize.ShloMosaic.PureOps.Ideal
import proofs.«174838_g35656818492260_cont_8to1_b_109_13_alg».proof.Proof.LibEReal

noncomputable section

open scoped BigOperators

namespace Cert.CosineLaw

open Idealize.ShloMosaic

variable {ι : Type} [Fintype ι]

/-- The guarded Euclidean norm of a row: max (√(Σₖ uₖ²)) ε. -/
def gnorm (ε : EReal) (u : ι → EReal) : EReal := max (Ideal.sqrt (∑ k, u k * u k)) ε

/-- The reference's logit of two rows: the dot product of the normalized rows, divided by the temperature D. -/
def refLogit (ε D : EReal) (u w : ι → EReal) : EReal :=
  Ideal.div (∑ k, Ideal.div (u k) (gnorm ε u) * Ideal.div (w k) (gnorm ε w)) D

/-- The kernel's logit of two rows: the first row is scaled by c / ‖u‖ before the dot product. -/
def kerLogit (ε c : EReal) (u w : ι → EReal) : EReal :=
  ∑ k, (u k * Ideal.div c (gnorm ε u)) * Ideal.div (w k) (gnorm ε w)

/-- The guarded norm of a row of reals is the real max (√(Σₖ uₖ²)) e. -/
theorem gnorm_coe (e : ℝ) (u : ι → ℝ) :
    gnorm (e : EReal) (fun k => ((u k : ℝ) : EReal)) = ((max (Real.sqrt (∑ k, u k * u k)) e : ℝ) : EReal) := by
  unfold gnorm
  simp only [← EReal.coe_mul]
  rw [Cert.LibEReal.coe_sum, Ideal.sqrt_coe, if_neg (not_lt.mpr (Finset.sum_nonneg fun k _ => mul_self_nonneg (u k))),
    Cert.LibEReal.max_coe_coe]

/-- With a positive guard the guarded norm of a row of reals is positive. -/
theorem gnorm_real_pos {e : ℝ} (he : 0 < e) (u : ι → ℝ) : 0 < max (Real.sqrt (∑ k, u k * u k)) e :=
  lt_of_lt_of_le he (le_max_right _ _)

/-- THE LAW: on rows of reals, with a positive guard and c · d = 1, the kernel's logit is the reference's. -/
theorem kerLogit_eq_refLogit {e c d : ℝ} (he : 0 < e) (hcd : c * d = 1) (u w : ι → ℝ) :
    kerLogit (e : EReal) (c : EReal) (fun k => ((u k : ℝ) : EReal)) (fun k => ((w k : ℝ) : EReal))
      = refLogit (e : EReal) (d : EReal) (fun k => ((u k : ℝ) : EReal)) (fun k => ((w k : ℝ) : EReal)) := by
  have hd : d ≠ 0 := fun h => by rw [h, mul_zero] at hcd; exact zero_ne_one hcd
  obtain rfl : c = d⁻¹ := eq_inv_of_mul_eq_one_left hcd
  unfold kerLogit refLogit
  rw [gnorm_coe e u, gnorm_coe e w]
  have hu := (gnorm_real_pos he u).ne'
  have hw := (gnorm_real_pos he w).ne'
  generalize max (Real.sqrt (∑ k, u k * u k)) e = nu at hu
  generalize max (Real.sqrt (∑ k, w k * w k)) e = nw at hw
  simp only [Cert.LibEReal.div_coe_coe _ _ hu, Cert.LibEReal.div_coe_coe _ _ hw, ← EReal.coe_mul]
  rw [Cert.LibEReal.coe_sum, Cert.LibEReal.coe_sum, Cert.LibEReal.div_coe_coe _ _ hd]
  refine congrArg (fun r : ℝ => (r : EReal)) ?_
  rw [Finset.sum_div]
  refine Finset.sum_congr rfl fun k _ => ?_
  field_simp

end Cert.CosineLaw

end
-- ==== Proof.Logits.lean ====
/-
  The result as ONE function of the two argument arrays: the cosine-similarity logits.

  For x : [4096, 256] and g : [8192, 256], entry (p, q) is the reference's logit of row p of x and row q of g:
      ( Σₖ (x(p,k) / ‖x(p,·)‖) · (g(q,k) / ‖g(q,·)‖) ) / D,    ‖u‖ = max (√(Σₖ uₖ²)) ε,
  with ε the f32 nearest 1e-12 and D the f32 nearest 0.1, each the exact value its pattern denotes.
-/
import Idealize.ShloMosaic.Lib.ValueIdx
import proofs.«174838_g35656818492260_cont_8to1_b_109_13_alg».proof.Proof.CosineLaw

noncomputable section

namespace Cert.Logits

open Idealize.ShloMosaic Idealize.ShloMosaic.ValueIdx Cert.CosineLaw

/-- The norm guard ε (pattern of the f32 nearest 1e-12). -/
abbrev eps : EReal := Ideal.ofBits .f32 0x2B8CBCCC#32
/-- The temperature D (pattern of the f32 nearest 0.1). -/
abbrev temperature : EReal := Ideal.ofBits .f32 0x3DCCCCCD#32

/-- Row `p` of an [a, 256] array. -/
abbrev row {a : ℕ} (x : (⟨2, ![a, 256]⟩ : Shape).Idx → EReal) (p : Fin a) : Fin 256 → EReal := fun k => x (ix2 p k)

/-- Entry (p, q) of the logits. -/
def logitAt (x : (⟨2, ![4096, 256]⟩ : Shape).Idx → EReal) (g : (⟨2, ![8192, 256]⟩ : Shape).Idx → EReal)
    (p : Fin 4096) (q : Fin 8192) : EReal :=
  refLogit eps temperature (row x p) (row g q)

/-- The logits, a [4096, 8192] array, as one function of the argument arrays. -/
def logits (x : (⟨2, ![4096, 256]⟩ : Shape).Idx → EReal) (g : (⟨2, ![8192, 256]⟩ : Shape).Idx → EReal) :
    (⟨2, ![4096, 8192]⟩ : Shape).Idx → EReal :=
  fun i => logitAt x g (i 0) (i 1)

theorem logits_ix2 (x : (⟨2, ![4096, 256]⟩ : Shape).Idx → EReal) (g : (⟨2, ![8192, 256]⟩ : Shape).Idx → EReal)
    (p : Fin 4096) (q : Fin 8192) : logits x g (ix2 p q) = logitAt x g p q := rfl

end Cert.Logits

end
-- ==== Proof.RefValue.lean ====
/-
  The reference computes the logits: its result, read one operation at a time, is `Cert.Logits.logits` of its arguments.

  Row p of x: the sum of squares along axis 1 (from the zero literal), kept as a column, square-rooted, maxed against
  ε, broadcast back along the row and divided into x gives x(p,k) / ‖x(p,·)‖; the same for g.  The transpose of the
  normalized g read at (k, q) is its entry (q, k), so the product's entry (p, q) is the dot product of the two
  normalized rows, and the last division is by the temperature literal.
-/
import proofs.«174838_g35656818492260_cont_8to1_b_109_13_alg».proof.Proof.Gen.ReferenceIdeal.Read
import proofs.«174838_g35656818492260_cont_8to1_b_109_13_alg».proof.Proof.Logits

noncomputable section

open scoped BigOperators

namespace Cert.ReferenceIdeal.RefValue

open Cert.ReferenceIdeal Cert.ReferenceIdeal.Gen Cert.ReferenceIdeal.Read
open Idealize.ShloMosaic Idealize.ShloMosaic.ValueIdx Cert.CosineLaw Cert.Logits

/-- The guarded norm column of x at (p, ·). -/
theorem norm_x (x0 : S4096x256.Idx → EReal) (p : Fin 4096) (u : Fin 1) :
    val_main_v5 (F := Ideal) x0 (ix2 p u) = gnorm eps (row x0 p) := by
  rw [val_main_v5_apply, val_main_v3_apply, val_main_v2_apply, val_main_v1_apply, val_main_v4_apply, val_main_cst_0_apply,
    val_main_cst_apply]
  have e : ∀ k : Fin 256, idx_main_v1 (idx_main_v2 (ix2 p u)) k = ix2 p k := fun k =>
    funext fun a => Fin.ext (by match a with | ⟨0, _⟩ => rfl | ⟨1, _⟩ => rfl)
  simp only [e, val_main_v0_apply, Ideal.maximumf_def, Ideal.hostUnary_sqrt_def, Ideal.ofBits_def, Ideal.mulf_def,
    Ideal.ofBits_zero_f32, zero_add]
  rfl

/-- The normalized x at (p, k). -/
theorem normalized_x (x0 : S4096x256.Idx → EReal) (p : Fin 4096) (k : Fin 256) :
    val_main_v7 (F := Ideal) x0 (ix2 p k) = Ideal.div (x0 (ix2 p k)) (gnorm eps (row x0 p)) := by
  have e : idx_main_v6 (ix2 p k) = ix2 p (0 : Fin 1) :=
    funext fun a => Fin.ext (by match a with | ⟨0, _⟩ => rfl | ⟨1, _⟩ => rfl)
  rw [val_main_v7_apply, val_main_v6_apply, e, norm_x]
  rfl

/-- The guarded norm column of g at (q, ·). -/
theorem norm_g (x1 : S8192x256.Idx → EReal) (q : Fin 8192) (u : Fin 1) :
    val_main_v13 (F := Ideal) x1 (ix2 q u) = gnorm eps (row x1 q) := by
  rw [val_main_v13_apply, val_main_v11_apply, val_main_v10_apply, val_main_v9_apply, val_main_v12_apply, val_main_cst_2_apply,
    val_main_cst_1_apply]
  have e : ∀ k : Fin 256, idx_main_v9 (idx_main_v10 (ix2 q u)) k = ix2 q k := fun k =>
    funext fun a => Fin.ext (by match a with | ⟨0, _⟩ => rfl | ⟨1, _⟩ => rfl)
  simp only [e, val_main_v8_apply, Ideal.maximumf_def, Ideal.hostUnary_sqrt_def, Ideal.ofBits_def, Ideal.mulf_def,
    Ideal.ofBits_zero_f32, zero_add]
  rfl

/-- The transposed normalized g at (k, q) is the normalized g at (q, k). -/
theorem normalized_g_t (x1 : S8192x256.Idx → EReal) (k : Fin 256) (q : Fin 8192) :
    val_main_v16 (F := Ideal) x1 (ix2 k q) = Ideal.div (x1 (ix2 q k)) (gnorm eps (row x1 q)) := by
  have et : idx_main_v16 (ix2 k q) = ix2 q k :=
    funext fun a => Fin.ext (by match a with | ⟨0, _⟩ => rfl | ⟨1, _⟩ => rfl)
  have e : idx_main_v14 (ix2 q k) = ix2 q (0 : Fin 1) :=
    funext fun a => Fin.ext (by match a with | ⟨0, _⟩ => rfl | ⟨1, _⟩ => rfl)
  rw [val_main_v16_apply, et, val_main_v15_apply, val_main_v14_apply, e, norm_g]
  rfl

/-- THE REFERENCE IS THE LOGITS. -/
theorem result_eq (x0 : S4096x256.Idx → EReal) (x1 : S8192x256.Idx → EReal) :
    val_main_v19 (F := Ideal) x0 x1 = logits x0 x1 := by
  funext i
  obtain ⟨p, q, rfl⟩ : ∃ (p : Fin 4096) (q : Fin 8192), i = ix2 p q := ⟨i 0, i 1, eq_ix2 i⟩
  have el : ∀ k : Fin 256, lidx_main_v17 (ix2 p q) k = ix2 p k := fun k =>
    funext fun a => Fin.ext (by match a with | ⟨0, _⟩ => rfl | ⟨1, _⟩ => rfl)
  have er : ∀ k : Fin 256, ridx_main_v17 (ix2 p q) k = ix2 k q := fun k =>
    funext fun a => Fin.ext (by match a with | ⟨0, _⟩ => rfl | ⟨1, _⟩ => rfl)
  rw [val_main_v19_apply, val_main_v17_apply, val_main_v18_apply, val_main_cst_3_apply, logits_ix2]
  simp only [el, er, normalized_x, normalized_g_t]
  rfl

end Cert.ReferenceIdeal.RefValue

end
-- ==== Proof.Finite.lean ====
/-
  The precondition: every entry of both argument arrays is a real number.

  The precondition function answers, as one bit, "all |x| < +∞ and all |g| < +∞".  On the extended reals
  |v| = max v (−v), the pattern 0x7F800000 is +∞, and max v (−v) < +∞ excludes both infinities, so each entry is the
  coercion of a real.
-/
import proofs.«174838_g35656818492260_cont_8to1_b_109_13_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Finite

open Idealize.ShloMosaic Cert.Pre_finite_inputs

instance : Subsingleton S_.Idx := ⟨fun a b => funext fun d => d.elim0⟩

/-- The f32 pattern of +∞ is the top element. -/
theorem ofBits_pos_inf : Ideal.ofBits .f32 0x7F800000#32 = (⊤ : EReal) := by simp [Ideal.ofBits, Ideal.ieee]

/-- An extended real whose absolute value is below +∞ is a real number. -/
theorem real_of_abs_lt_inf (v : EReal)
    (h : Ideal.cmp .olt (max v (-v)) (Ideal.ofBits .f32 0x7F800000#32) = 1#1) : ∃ r : ℝ, v = (r : EReal) := by
  rw [ofBits_pos_inf] at h
  have hlt : max v (-v) < ⊤ := by
    by_contra hn
    have : Ideal.cmp .olt (max v (-v)) ⊤ = 0#1 := by
      show BitVec.ofBool (decide (max v (-v) < ⊤)) = 0#1
      rw [decide_eq_false hn]; rfl
    rw [this] at h
    exact absurd h (by decide)
  have h1 : v < ⊤ := lt_of_le_of_lt (le_max_left _ _) hlt
  have h2 : -v < ⊤ := lt_of_le_of_lt (le_max_right _ _) hlt
  have h3 : v ≠ ⊥ := by
    rintro rfl
    rw [EReal.neg_bot] at h2
    exact lt_irrefl _ h2
  exact ⟨v.toReal, (EReal.coe_toReal h1.ne h3).symm⟩

/-- Under the precondition every entry of x and of group_features is a real number. -/
theorem real_inputs [Cert.Pre_finite_inputs.Facts] (x : FVec Ideal S4096x256 .f32) (g : FVec Ideal S8192x256 .f32)
    (h : Cert.Pre_finite_inputs.fn (F := Ideal) x g = fun _ => 1#1) :
    (∀ i, ∃ r : ℝ, x i = (r : EReal)) ∧ (∀ i, ∃ r : ℝ, g i = (r : EReal)) := by
  have h0 := congrFun h ValueIdx.ix0
  dsimp only [fn] at h0
  obtain ⟨ha, hb⟩ := IntOp.andi_eq_one.mp h0
  exact ⟨fun i => real_of_abs_lt_inf (x i) (Host.reduce_andi_all _ _ _ _ _ ha i),
    fun i => real_of_abs_lt_inf (g i) (Host.reduce_andi_all _ _ _ _ _ hb i)⟩

end Cert.Finite

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.LibRowNorm.lean ====
/-
  L2 normalization of the rows of an [a, b] array with a guard, in the vector spelling a kernel body uses, read at an
  index given by its coordinates.

  The sum of squares along axis 1 at row p is Σₖ x(p,k)²; kept as an [a, 1] column, square-rooted and maxed against a
  splat guard ε it is the guarded norm  max (√(Σₖ x(p,k)²)) ε  of row p at (p, ·).  A row scaled by c / ‖row‖
  (a splat c divided by the norm column, broadcast along the row) reads x(p,k) · (c / N(p,0)), and a row divided by
  its norm column reads x(p,k) / N(p,0); a change of float format in between is the identity on extended reals.
-/
import Idealize.ShloMosaic.PureOps.Ideal
import Idealize.ShloMosaic.PureOps.Ideal.Laws
import Idealize.ShloMosaic.Lib.Pipeline.Value
import Idealize.ShloMosaic.Lib.ValueIdx
import proofs.«174838_g35656818492260_cont_8to1_b_109_13_alg».proof.Proof.LibKeepdims

noncomputable section

open scoped BigOperators

namespace Cert.LibRowNorm

open Idealize.ShloMosaic Idealize.ShloMosaic.ValueIdx

/-- The lane sum of squares along axis 1, at row `p`: Σₖ x(p,k) · x(p,k). -/
theorem sumsq_apply {a b : ℕ} (x : FVec Ideal ⟨2, ![a, b]⟩ .f32)
    (hred : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ (mulf x x) 0x00000000#32 hred hφ hacc (ix1 p)
      = ∑ k : Fin b, x (ix2 p k) * x (ix2 p k) :=
  (Ideal.multiReduction_add_single (mulf x x) 0x00000000#32 hred hφ hacc (ix1 p)).trans
    (Finset.sum_congr rfl fun k _ => congrArg (fun i => x i * x i)
      (funext fun c => Fin.ext (by match c with | ⟨0, _⟩ => rfl | ⟨1, _⟩ => rfl)))

/-- The guarded norm column at `(p, u)`: max (√(Σₖ x(p,k)²)) ε. -/
theorem norm_col_apply {a b : ℕ} (x : FVec Ideal ⟨2, ![a, b]⟩ .f32)
    (hred : (⟨2, ![a, b]⟩ : Shape).Reduces [1] ⟨1, ![a]⟩) (hφ : FKind.Formats .f32)
    (hacc : (0x00000000#32 : BitVec 32) = FKind.add.neutral .f32 hφ)
    (hcast : (⟨1, ![a]⟩ : Shape).ShapeCasts ⟨2, ![a, 1]⟩) (e : BitVec 32) (p : Fin a) (u : Fin 1) :
    maximumf (sqrt (shapeCast ⟨2, ![a, 1]⟩ (multiReduction .add [1] ⟨1, ![a]⟩ (mulf x x) 0x00000000#32 hred hφ hacc) hcast))
        (broadcast ⟨2, ![a, 1]⟩ (Scalar.ofBits (F := Ideal) .f32 e)) (ix2 p u)
      = max (Ideal.sqrt (∑ k : Fin b, x (ix2 p k) * x (ix2 p k))) (Ideal.ofBits .f32 e) := by
  show max (Ideal.sqrt (shapeCast ⟨2, ![a, 1]⟩ _ hcast (ix2 p u))) (Ideal.ofBits .f32 e) = _
  rw [Cert.LibKeepdims.shapeCast_a_a1_apply, sumsq_apply]

/-- A row scaled by a splat over its norm column, then rounded to another format: x(p,k) · (c / N(p,0)). -/
theorem scaled_row_apply {a b : ℕ} {ψ : FTy} (x : FVec Ideal ⟨2, ![a, b]⟩ .f32) (N : FVec Ideal ⟨2, ![a, 1]⟩ .f32) (c : EReal)
    (hbc : (⟨2, ![a, 1]⟩ : Shape).Broadcasts ⟨2, ![a, b]⟩) (hψ : ψ.bits < FTy.f32.bits) (p : Fin a) (k : Fin b) :
    (truncf ψ (mulf x (broadcastTo ⟨2, ![a, b]⟩ (divf (broadcast ⟨2, ![a, 1]⟩ (c : Ideal .f32)) N) hbc)) hψ : FVec Ideal ⟨2, ![a, b]⟩ ψ) (ix2 p k)
      = x (ix2 p k) * Ideal.div c (N (ix2 p (0 : Fin 1))) := by
  show x (ix2 p k) * broadcastTo ⟨2, ![a, b]⟩ (divf (broadcast ⟨2, ![a, 1]⟩ (c : Ideal .f32)) N) hbc (ix2 p k) = _
  rw [Cert.LibKeepdims.broadcastTo_a1_ab_apply]
  rfl

/-- A row divided by its norm column, then rounded to another format: x(p,k) / N(p,0). -/
theorem normalized_row_apply {a b : ℕ} {ψ : FTy} (x : FVec Ideal ⟨2, ![a, b]⟩ .f32) (N : FVec Ideal ⟨2, ![a, 1]⟩ .f32)
    (hbc : (⟨2, ![a, 1]⟩ : Shape).Broadcasts ⟨2, ![a, b]⟩) (hψ : ψ.bits < FTy.f32.bits) (p : Fin a) (k : Fin b) :
    (truncf ψ (divf x (broadcastTo ⟨2, ![a, b]⟩ N hbc)) hψ : FVec Ideal ⟨2, ![a, b]⟩ ψ) (ix2 p k)
      = Ideal.div (x (ix2 p k)) (N (ix2 p (0 : Fin 1))) := by
  show Ideal.div (x (ix2 p k)) (broadcastTo ⟨2, ![a, b]⟩ N hbc (ix2 p k)) = _
  rw [Cert.LibKeepdims.broadcastTo_a1_ab_apply]

end Cert.LibRowNorm

end
-- ==== Proof.KernelPayload.lean ====
/-
  The kernel body's stored value at an index.

  At one grid point the body holds all of x (4096 × 256) and one block of 512 rows of group_features.  Its matrix
  product, contracting axis 1 of both operands into a zero accumulator, has at (p, q) the sum over k of the left operand
  at (p, k) times the right operand at (q, k).  The left operand is x scaled row by row by c / ‖x(p,·)‖ with c the NAMED
  reciprocal of the temperature; the right operand is the block divided row by row by ‖g(q,·)‖; the rounding of both to
  bf16 is the identity on extended reals.  So the entry is the kernel's logit of row p of x and row q of the block.
-/
import proofs.«174838_g35656818492260_cont_8to1_b_109_13_alg».proof.Proof.Gen.KernelIdeal.Skeleton
import Idealize.ShloMosaic.PureOps.IdealRules
import proofs.«174838_g35656818492260_cont_8to1_b_109_13_alg».proof.Proof.LibMatmul
import proofs.«174838_g35656818492260_cont_8to1_b_109_13_alg».proof.Proof.LibRowNorm
import proofs.«174838_g35656818492260_cont_8to1_b_109_13_alg».proof.Proof.Logits

noncomputable section

open scoped BigOperators

namespace Cert.KernelIdeal.Payload

open Cert.KernelIdeal Cert.KernelIdeal.Gen
open Idealize.ShloMosaic Idealize.ShloMosaic.ValueIdx Cert.CosineLaw Cert.Logits

/-- The kernel's named reciprocal of the temperature, as the body spells it. -/
abbrev invTemperature : EReal := Named.named (F := Ideal) κ "inv_temperature" (φ := .f32) 0x41200000#32

/-- It denotes the rational 134217728 / 13421773, the exact reciprocal of the temperature literal. -/
theorem invTemperature_eq : invTemperature = ((134217728 / 13421773 : ℝ) : EReal) :=
  IdealRules.named_const.ideal_named_scalar _ _ _ _ rfl

/-- Coordinate 0 of the left operand's index is the output's row. -/
theorem lhs_0 (j : S4096x512.Idx) (κ' : dot_S4096x256_S512x256_S4096x512_1_1_0_0_n_n.contr.Idx) :
    (dot_S4096x256_S512x256_S4096x512_1_1_0_0_n_n.lhsIdx j κ' 0).val = (j 0).val := by
  unfold DotDims.lhsIdx
  rw [dif_neg (show ¬(0 : Fin S4096x256.rank) ∈ dot_S4096x256_S512x256_S4096x512_1_1_0_0_n_n.lhsBatch by decide),
    dif_pos (show (0 : Fin S4096x256.rank) ∈ dot_S4096x256_S512x256_S4096x512_1_1_0_0_n_n.lhsNonContracting by decide)]
  rfl

/-- Coordinate 0 of the right operand's index is the output's column. -/
theorem rhs_0 (j : S4096x512.Idx) (κ' : dot_S4096x256_S512x256_S4096x512_1_1_0_0_n_n.contr.Idx) :
    (dot_S4096x256_S512x256_S4096x512_1_1_0_0_n_n.rhsIdx j κ' 0).val = (j 1).val := by
  unfold DotDims.rhsIdx
  rw [dif_neg (show ¬(0 : Fin S512x256.rank) ∈ dot_S4096x256_S512x256_S4096x512_1_1_0_0_n_n.rhsBatch by decide),
    dif_pos (show (0 : Fin S512x256.rank) ∈ dot_S4096x256_S512x256_S4096x512_1_1_0_0_n_n.rhsNonContracting by decide)]
  rfl

/-- The left operand's index at output (p, q) and contraction coordinate k is (p, k). -/
theorem lhs_idx (p : Fin 4096) (q : Fin 512) (κ' : dot_S4096x256_S512x256_S4096x512_1_1_0_0_n_n.contr.Idx) (k : Fin 256)
    (hk : (κ' ⟨0, by decide⟩ : ℕ) = k.val) :
    dot_S4096x256_S512x256_S4096x512_1_1_0_0_n_n.lhsIdx (ix2 p q) κ' = ix2 p k :=
  funext fun a => Fin.ext (by
    match a with
    | ⟨0, _⟩ => exact lhs_0 _ _
    | ⟨1, _⟩ => exact (dot_S4096x256_S512x256_S4096x512_1_1_0_0_n_n.lhsIdx_val_of_single rfl (ix2 p q) κ').trans hk)

/-- The right operand's index at output (p, q) and contraction coordinate k is (q, k). -/
theorem rhs_idx (p : Fin 4096) (q : Fin 512) (κ' : dot_S4096x256_S512x256_S4096x512_1_1_0_0_n_n.contr.Idx) (k : Fin 256)
    (hk : (κ' ⟨0, by decide⟩ : ℕ) = k.val) :
    dot_S4096x256_S512x256_S4096x512_1_1_0_0_n_n.rhsIdx (ix2 p q) κ' = ix2 q k :=
  funext fun a => Fin.ext (by
    match a with
    | ⟨0, _⟩ => exact rhs_0 _ _
    | ⟨1, _⟩ => exact (dot_S4096x256_S512x256_S4096x512_1_1_0_0_n_n.rhsIdx_val_of_single rfl (ix2 p q) κ').trans hk)

/-- THE PAYLOAD AT (p, q): the kernel's logit of row p of x and row q of the block. -/
theorem pay_apply (x0 : FVec Ideal S4096x256 .f32) (x1 : FVec Ideal S512x256 .f32) (p : Fin 4096) (q : Fin 512) :
    k0_pay1 (F := Ideal) x0 x1 (ix2 p q) = kerLogit eps invTemperature (row x0 p) (row x1 q) := by
  unfold k0_pay1
  refine (Cert.LibMatmul.matmul_zero_sum1 dot_S4096x256_S512x256_S4096x512_1_1_0_0_n_n none 256 rfl rfl _ _ (ix2 p q)
    (fun k => ix2 p k) (fun k => ix2 q k) (lhs_idx p q) (rhs_idx p q)).trans ?_
  unfold kerLogit
  refine Finset.sum_congr rfl fun k _ => ?_
  refine congrArg₂ (· * ·) ?_ ?_
  · exact (Cert.LibRowNorm.scaled_row_apply (ψ := .bf16) x0 _ _ _ _ p k).trans
      (congrArg (fun n => x0 (ix2 p k) * Ideal.div invTemperature n) (Cert.LibRowNorm.norm_col_apply x0 _ _ _ _ _ p 0))
  · exact (Cert.LibRowNorm.normalized_row_apply (ψ := .bf16) x1 _ _ _ q k).trans
      (congrArg (fun n => Ideal.div (x1 (ix2 q k)) n) (Cert.LibRowNorm.norm_col_apply x1 _ _ _ _ _ q 0))

end Cert.KernelIdeal.Payload

end
-- ==== Proof.KernelValue.lean ====
/-
  From the kernel's blocks to its whole result array.

  The grid has 16 points.  At point t the body sees all of x (its window never moves) and rows 512·t … 512·t + 511 of
  group_features, and writes back the [4096, 512] block of columns 512·t … 512·t + 511 of the result.  Entry (p, q) of
  that block is the kernel's logit of row p of x and row q of the block (the payload read at an index), that is, of row
  p of x and row 512·t + q of group_features: the block is the restriction of ONE whole-array function, `kerLogits`.
  The 16 column blocks cover the result (column q lies in block q / 512), so after the run the result array is that
  function of the argument arrays.
-/
import proofs.«174838_g35656818492260_cont_8to1_b_109_13_alg».proof.Proof.Gen.KernelIdeal.Value
import proofs.«174838_g35656818492260_cont_8to1_b_109_13_alg».proof.Proof.KernelPayload

noncomputable section

namespace Cert.KernelIdeal.KValue

open Cert.KernelIdeal Cert.KernelIdeal.Gen Cert.KernelIdeal.Payload
open Idealize.ShloMosaic Idealize.ShloMosaic.TcCoe Idealize.SL.Sem Idealize.ShloMosaic.ValueIdx
open Idealize.ShloMosaic.Pipeline (Dat)
open Cert.CosineLaw Cert.Logits

variable (m : (ℓ : Loc nD τ sig) → Buf (Elt Ideal) ℓ) (ρ : Dev nD → PrngReg)

/-- The kernel's result as one function of the argument arrays: entry (p, q) is the kernel's logit of row p of x and
    row q of group_features. -/
def kerLogits (x : S4096x256.Idx → EReal) (g : S8192x256.Idx → EReal) : S4096x8192.Idx → EReal :=
  fun i => kerLogit eps invTemperature (row x (i 0)) (row g (i 1))

theorem kerLogits_ix2 (x : S4096x256.Idx → EReal) (g : S8192x256.Idx → EReal) (p : Fin 4096) (q : Fin 8192) :
    kerLogits x g (ix2 p q) = kerLogit eps invTemperature (row x p) (row g q) := rfl

theorem origin_eq : (![0, 0] : Fin 2 → Nat) = fun _ => 0 := funext fun a => by fin_cases a <;> rfl

/-- The printed index maps over the 16 grid points: x's window stays at block (0, 0); the window of group_features
    is at block (t, 0) where the result's window is at block (0, t). -/
theorem index_maps : ∀ t : Fin cfg0.N, win0_0.index t (0 : Fin 2) = 0
    ∧ win0_0.index t (1 : Fin 2) = 0
    ∧ win0_1.index t (0 : Fin 2) = win0_2.index t (1 : Fin 2)
    ∧ win0_1.index t (1 : Fin 2) = 0
    ∧ win0_2.index t (0 : Fin 2) = 0
    ∧ win0_2.index t (1 : Fin 2) ≤ 15 :=
  (by decide +kernel : ∀ t : Fin grid0.N, _)

/-- Every column block of the result is some point's. -/
theorem index_onto : ∀ (b : Fin 16), ∃ t : Fin cfg0.N, win0_2.index t = ![0, b.val] :=
  (by decide +kernel : ∀ (b : Fin 16), ∃ t : Fin grid0.N, win0_2.index t = ![0, b.val])

/-- The block of x at any point is x itself. -/
theorem blk_x (c : Dev nD) (t : Fin cfg0.N) (p : Fin 4096) (k : Fin 256) :
    iblk m c 0 t (ix2 p k) = V m c main_arg0 (ix2 p k) := by
  obtain ⟨e00, e01, e10, e11, e20, e21⟩ := index_maps t
  show V m c main_arg0 (((cfg0.win 0).blk t).view.emb (ix2 p k)) = V m c main_arg0 (ix2 p k)
  refine congrArg (V m c main_arg0) (funext fun a => Fin.ext ?_)
  match a with
  | ⟨0, _⟩ => show win0_0.index t (0 : Fin 2) * 4096 + 1 * p.val = p.val; omega
  | ⟨1, _⟩ => show win0_0.index t (1 : Fin 2) * 256 + 1 * k.val = k.val; omega

/-- The block of group_features at point t holds its rows 512·b … 512·b + 511, b the result window's column block. -/
theorem blk_g (c : Dev nD) (t : Fin cfg0.N) (q : Fin 512) (k : Fin 256)
    (hq : win0_2.index t (1 : Fin 2) * 512 + q.val < 8192) :
    iblk m c 1 t (ix2 q k) = V m c main_arg1 (ix2 (⟨win0_2.index t (1 : Fin 2) * 512 + q.val, hq⟩ : Fin 8192) k) := by
  obtain ⟨e00, e01, e10, e11, e20, e21⟩ := index_maps t
  show V m c main_arg1 (((cfg0.win 1).blk t).view.emb (ix2 q k)) = V m c main_arg1 (ix2 (⟨win0_2.index t (1 : Fin 2) * 512 + q.val, hq⟩ : Fin 8192) k)
  refine congrArg (V m c main_arg1) (funext fun a => Fin.ext ?_)
  match a with
  | ⟨0, _⟩ => show win0_1.index t (0 : Fin 2) * 512 + 1 * q.val = win0_2.index t (1 : Fin 2) * 512 + q.val; omega
  | ⟨1, _⟩ => show win0_1.index t (1 : Fin 2) * 256 + 1 * k.val = k.val; omega

/-- The payload of blocks that are x and rows 512·b … of g, at a block index j, is `kerLogits` at the array index i
    that j sits at in column block b. -/
theorem pay_of_blocks (X : S4096x256.Idx → EReal) (Gm : S8192x256.Idx → EReal)
    (x0 : FVec Ideal S4096x256 .f32) (x1 : FVec Ideal S512x256 .f32) (b : ℕ)
    (h0 : ∀ (p : Fin 4096) (k : Fin 256), x0 (ix2 p k) = X (ix2 p k))
    (h1 : ∀ (q : Fin 512) (k : Fin 256) (hq : b * 512 + q.val < 8192), x1 (ix2 q k) = Gm (ix2 (⟨b * 512 + q.val, hq⟩ : Fin 8192) k))
    (j : S4096x512.Idx) (i : S4096x8192.Idx) (hi0 : (i 0).val = (j 0).val) (hi1 : (i 1).val = b * 512 + (j 1).val) :
    k0_pay1 (F := Ideal) x0 x1 j = kerLogits X Gm i := by
  obtain ⟨p, q, rfl⟩ : ∃ (p : Fin 4096) (q : Fin 512), j = ix2 p q := ⟨j 0, j 1, eq_ix2 j⟩
  obtain ⟨p', q', rfl⟩ : ∃ (p' : Fin 4096) (q' : Fin 8192), i = ix2 p' q' := ⟨i 0, i 1, eq_ix2 i⟩
  have hp : p' = p := Fin.ext hi0
  have hq : q'.val = b * 512 + q.val := hi1
  subst hp
  have hrow0 : row x0 p' = row X p' := funext fun k => h0 p' k
  have hrow1 : row x1 q = row Gm q' := funext fun k => by
    show x1 (ix2 q k) = Gm (ix2 q' k)
    rw [h1 q k (by rw [← hq]; exact q'.isLt)]
    exact congrArg (fun z : Fin 8192 => Gm (ix2 z k)) (Fin.ext hq.symm)
  rw [pay_apply, kerLogits_ix2, hrow0, hrow1]

/-- WHAT POINT t WRITES BACK is block t of `kerLogits` of the argument arrays. -/
theorem flushed_eq (c : Dev nD) (t : Fin cfg0.N) :
    (dats m 0 c).flushed 2 t
      = ((cfg0.win 2).blk t).view.read (Elt Ideal) (kerLogits (V m c main_arg0) (V m c main_arg1)) := by
  rw [Cert.KernelIdeal.Value.flushed2]
  unfold out0_2
  rw [View.canon_unit_zero origin_eq]
  simp only [View.ld_unit_zero (S := S4096x256) origin_eq, View.ld_unit_zero (S := S512x256) origin_eq]
  obtain ⟨e00, e01, e10, e11, e20, e21⟩ := index_maps t
  funext j
  show k0_pay1 (F := Ideal) (iblk m c 0 t) (iblk m c 1 t) j
    = kerLogits (V m c main_arg0) (V m c main_arg1) (((cfg0.win 2).blk t).view.emb j)
  refine pay_of_blocks (V m c main_arg0) (V m c main_arg1) (iblk m c 0 t) (iblk m c 1 t) (win0_2.index t (1 : Fin 2))
    (blk_x m c t) (blk_g m c t) j _ ?_ ?_
  · show win0_2.index t (0 : Fin 2) * 4096 + 1 * (j 0).val = (j 0).val; omega
  · show win0_2.index t (1 : Fin 2) * 512 + 1 * (j 1).val = win0_2.index t (1 : Fin 2) * 512 + (j 1).val; omega

/-- An index of the result is in point t's block iff each coordinate is in the block's range on its axis. -/
theorem mem_blk (t : Fin cfg0.N) (i : S4096x8192.Idx) :
    i ∈ ((cfg0.win 2).blk t).view.set ↔ ∀ a : Fin 2, win0_2.index t a * S4096x512.size a ≤ (i a).val
      ∧ (i a).val < win0_2.index t a * S4096x512.size a + S4096x512.size a := by
  show i ∈ ((View.whole main_v0).slice (win0_2.rect t)).set ↔ _
  rw [View.set_slice_whole, Rect.mem_set_unit]
  exact Iff.rfl

/-- THE COVER: every index of the result lies in the block of the point that holds its column block. -/
theorem cover (i : S4096x8192.Idx) :
    ∃ t : Fin cfg0.N, (cfg0.win 2).flush t = true ∧ i ∈ ((cfg0.win 2).blk t).view.set := by
  have hi0 : (i 0).val < 4096 := (i 0).isLt
  have hi1 : (i 1).val < 8192 := (i 1).isLt
  obtain ⟨t, ht⟩ := index_onto ⟨(i 1).val / 512, by omega⟩
  have q0 : win0_2.index t (0 : Fin 2) = 0 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 512 ≤ (i 1).val ∧ (i 1).val < win0_2.index t (1 : Fin 2) * 512 + 512; omega

/-- THE RESULT ARRAY after the run is `kerLogits` of the argument arrays. -/
theorem final (c : Dev nD) :
    (dats m 0 c).arrAt 2 cfg0.N = kerLogits (m ((c : Thread nD τ).loc main_arg0)) (m ((c : Thread nD τ).loc main_arg1)) :=
  (dats m 0 c).arrAt_eq_of_cover 2 (kerLogits (V m c main_arg0) (V m c main_arg1)) (fun t _ => flushed_eq m c t) cover

/-- The kernel's run: the result at `kerLogits` of the arguments, the arguments unchanged. -/
theorem run : θ_run defs (onTc (τ := τ) (main (F := Ideal))) ⟨m, fun _ => 0, ρ⟩ fun r => ∀ c : Dev nD,
      r.2.mem ((c : Thread nD τ).loc main_v0) = kerLogits (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.KValue

end
-- ==== Proof.Consts.lean ====
/-
  The float literals of the two programs, as the extended reals their patterns denote.

  ε = 0x2B8CBCCC is the positive real 9223372 / 2^63 (the f32 nearest 1e-12), the guard under both programs' norms;
  the reference's temperature 0x3DCCCCCD is the rational 13421773 / 2^27 (the f32 nearest 0.1).
-/
import Idealize.ShloMosaic.PureOps.Ideal

noncomputable section

namespace Cert.Consts

open Idealize.ShloMosaic

/-- The norm guard ε, the f32 nearest 1e-12, denotes the real 9223372 / 2^63. -/
theorem ofBits_eps : Ideal.ofBits .f32 0x2B8CBCCC#32 = ((9223372 / 9223372036854775808 : ℝ) : EReal) := by
  simp [Ideal.ofBits, Ideal.ieee, -EReal.coe_mul]; norm_num

/-- The guard is positive. -/
theorem eps_pos : (0 : ℝ) < 9223372 / 9223372036854775808 := by norm_num

/-- The reference's temperature, the f32 nearest 0.1, denotes the rational 13421773 / 2^27. -/
theorem ofBits_temperature : Ideal.ofBits .f32 0x3DCCCCCD#32 = ((13421773 / 134217728 : ℝ) : EReal) := by
  simp [Ideal.ofBits, Ideal.ieee, -EReal.coe_mul]; norm_num

/-- The named reciprocal times the temperature is one. -/
theorem inv_mul_temperature : (134217728 / 13421773 : ℝ) * (13421773 / 134217728) = 1 := by norm_num

end Cert.Consts

end
-- ==== Proof.Bridge.lean ====
/-
  On arrays of real numbers the kernel's result function is the logits.

  Entry (p, q) of either is a function of row p of x and row q of group_features only, and on rows of reals the
  kernel's logit (the named reciprocal c folded into the scaling of x) is the reference's logit (division by the
  temperature D at the end) because c · D = 1: the law of the cosine logit, at ε = 9223372 / 2^63 > 0.
-/
import proofs.«174838_g35656818492260_cont_8to1_b_109_13_alg».proof.Proof.KernelValue
import proofs.«174838_g35656818492260_cont_8to1_b_109_13_alg».proof.Proof.Consts

noncomputable section

namespace Cert.Bridge

open Cert.KernelIdeal Cert.KernelIdeal.Payload Cert.KernelIdeal.KValue
open Idealize.ShloMosaic Idealize.ShloMosaic.ValueIdx Cert.CosineLaw Cert.Logits

/-- The kernel's result function equals the logits when every entry of both arrays is a real number. -/
theorem kerLogits_eq_logits (x : S4096x256.Idx → EReal) (g : S8192x256.Idx → EReal)
    (hx : ∀ i, ∃ r : ℝ, x i = (r : EReal)) (hg : ∀ i, ∃ r : ℝ, g i = (r : EReal)) :
    kerLogits x g = logits x g := by
  funext i
  obtain ⟨p, q, rfl⟩ : ∃ (p : Fin 4096) (q : Fin 8192), i = ix2 p q := ⟨i 0, i 1, eq_ix2 i⟩
  choose xr hxr using hx
  choose gr hgr using hg
  have hrx : row x p = fun k : Fin 256 => ((xr (ix2 p k) : ℝ) : EReal) := funext fun k => hxr _
  have hrg : row g q = fun k : Fin 256 => ((gr (ix2 q k) : ℝ) : EReal) := funext fun k => hgr _
  rw [kerLogits_ix2, logits_ix2]
  unfold logitAt
  rw [hrx, hrg, invTemperature_eq]
  show kerLogit (Ideal.ofBits .f32 0x2B8CBCCC#32) _ _ _ = refLogit (Ideal.ofBits .f32 0x2B8CBCCC#32) (Ideal.ofBits .f32 0x3DCCCCCD#32) _ _
  rw [Cert.Consts.ofBits_eps, Cert.Consts.ofBits_temperature]
  exact kerLogit_eq_refLogit Cert.Consts.eps_pos Cert.Consts.inv_mul_temperature _ _

end Cert.Bridge

end
-- ==== Proof.lean ====
/-
  Cosine-similarity logits: a fused kernel against the jnp reference, equal on the extended reals.

  Both programs L2-normalize the rows of x : [4096, 256] and of group_features : [8192, 256] with the guarded norm
  ‖u‖ = max (√(Σₖ uₖ²)) ε and form all pairwise dot products of normalized rows.  The reference divides the
  [4096, 8192] product by the temperature D (the f32 nearest 0.1) at the end.  The kernel works on 16 column blocks of
  512 rows of group_features at a time and never touches the output elementwise: it folds the reciprocal of the
  temperature into the scaling of x, multiplying row p by c / ‖x(p,·)‖ with c the literal 10.0 NAMED as the exact
  rational 1/D = 134217728 / 13421773.  Since c · D = 1 and, under the precondition, every entry is a real number
  (so that every guarded norm is a positive real and constants move across the finite sum), entry (p, q) is
      Σₖ (x(p,k) · (c / ‖x(p,·)‖)) · (g(q,k) / ‖g(q,·)‖)  =  ( Σₖ (x(p,k) / ‖x(p,·)‖) · (g(q,k) / ‖g(q,·)‖) ) / D
  in both programs.

  The modules: CosineLaw (the law on two rows), Logits (the result as one function of the arguments), RefValue (the
  reference computes it), KernelPayload (the body's stored value at an index), KernelValue (the 16 blocks are the
  restrictions of one function and cover the result), Finite (the precondition makes every entry real), Bridge (on
  real entries the kernel's function is the logits).  The frames of the two kernels and the reference's run are the
  generated modules'.
-/
import proofs.«174838_g35656818492260_cont_8to1_b_109_13_alg».proof.Defs
import proofs.«174838_g35656818492260_cont_8to1_b_109_13_alg».proof.Proof.Gen.Kernel
import proofs.«174838_g35656818492260_cont_8to1_b_109_13_alg».proof.Proof.Gen.Kernel.Skeleton
import proofs.«174838_g35656818492260_cont_8to1_b_109_13_alg».proof.Proof.Gen.Kernel.Launch
import proofs.«174838_g35656818492260_cont_8to1_b_109_13_alg».proof.Proof.Gen.Kernel.Points
import proofs.«174838_g35656818492260_cont_8to1_b_109_13_alg».proof.Proof.Gen.Kernel.Frame
import proofs.«174838_g35656818492260_cont_8to1_b_109_13_alg».proof.Proof.Gen.KernelIdeal
import proofs.«174838_g35656818492260_cont_8to1_b_109_13_alg».proof.Proof.Gen.KernelIdeal.Skeleton
import proofs.«174838_g35656818492260_cont_8to1_b_109_13_alg».proof.Proof.Gen.KernelIdeal.Launch
import proofs.«174838_g35656818492260_cont_8to1_b_109_13_alg».proof.Proof.Gen.KernelIdeal.Points
import proofs.«174838_g35656818492260_cont_8to1_b_109_13_alg».proof.Proof.Gen.KernelIdeal.Frame
import proofs.«174838_g35656818492260_cont_8to1_b_109_13_alg».proof.Proof.Gen.KernelIdeal.Value
import proofs.«174838_g35656818492260_cont_8to1_b_109_13_alg».proof.Proof.Gen.ReferenceIdeal
import proofs.«174838_g35656818492260_cont_8to1_b_109_13_alg».proof.Proof.Gen.ReferenceIdeal.Run
import proofs.«174838_g35656818492260_cont_8to1_b_109_13_alg».proof.Proof.Gen.ReferenceIdeal.Read
import proofs.«174838_g35656818492260_cont_8to1_b_109_13_alg».proof.Proof.Gen.Pre_finite_inputs
import proofs.«174838_g35656818492260_cont_8to1_b_109_13_alg».proof.Proof.RefValue
import proofs.«174838_g35656818492260_cont_8to1_b_109_13_alg».proof.Proof.Finite
import proofs.«174838_g35656818492260_cont_8to1_b_109_13_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged (the generated frame). -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the literal 10.0 is named the rational 134217728 / 13421773. -/
theorem preserves : Cert.preserves_Kernel_KernelIdeal :=
  IdealRules.named_const.statement Cert.KernelIdeal.κ "inv_temperature" .f32 0x41200000#32
    ((134217728 / 13421773 : ℝ) : EReal) rfl

/-- Both idealized programs end with the logits of the (agreeing) arguments in their result arrays. -/
theorem algebraic : Cert.algebraic_KernelIdeal_ReferenceIdeal := by
  intro m ρ m' ρ' hpre hagree
  refine ⟨fun c => Cert.Logits.logits (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.KValue.run m ρ)
    obtain ⟨hx, hg⟩ := Cert.Finite.real_inputs _ _ (hpre c)
    exact Cert.Bridge.kerLogits_eq_logits _ _ hx hg
  · refine (θ_run Cert.ReferenceIdeal.defs _ _).mono (fun _ h c => ⟨?_, (h c).2⟩)
      (Cert.ReferenceIdeal.Value.run (F := Ideal) m' ρ')
    rw [(h c).1, Cert.ReferenceIdeal.Read.val_main_v19_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
